-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x2048 : Shape := ⟨2, ![512, 2048]⟩
abbrev S16384x2048 : Shape := ⟨2, ![16384, 2048]⟩
abbrev S16384 : Shape := ⟨1, ![16384]⟩
abbrev S_ : Shape := ⟨0, ![]⟩

class Facts : Prop where
  bcast_S_S512x2048 : S_.BroadcastsInDim S512x2048 (![] : Fin 0 → Fin S512x2048.rank)
  reducesTo_S512x2048_S_d0_1 : S512x2048.ReducesTo [0, 1] S_
  h_S_ : 0 < S_.numel
  bcast_S_S16384x2048 : S_.BroadcastsInDim S16384x2048 (![] : Fin 0 → Fin S16384x2048.rank)
  reducesTo_S16384x2048_S_d0_1 : S16384x2048.ReducesTo [0, 1] S_

variable [Facts]

def fn {F : FTy → Type} [FloatOps F] (main_arg0 : FVec F S512x2048 .f32) (main_arg1 : FVec F S16384x2048 .f32) (main_arg2 : IVec S16384 32) : IVec S_ 1 :=
  let main_v0 : FVec F S512x2048 .f32 := Host.absf main_arg0
  let main_cst : FVec F S_ .f32 := constant S_ .f32 0x7F800000#32
  let main_v1 : FVec F S512x2048 .f32 := broadcastInDim S512x2048 ![] bcast_S_S512x2048 main_cst
  let main_v2 : IVec S512x2048 1 := cmpf .olt main_v0 main_v1
  let main_c : IVec S_ 1 := constantI S_ 1 1#1
  let main_v3 : IVec S_ 1 := (fun x v => Host.reduce IntOp.andi x v reducesTo_S512x2048_S_d0_1 h_S_) main_v2 main_c
  let main_v4 : FVec F S16384x2048 .f32 := Host.absf main_arg1
  let main_cst_0 : FVec F S_ .f32 := constant S_ .f32 0x7F800000#32
  let main_v5 : FVec F S16384x2048 .f32 := broadcastInDim S16384x2048 ![] bcast_S_S16384x2048 main_cst_0
  let main_v6 : IVec S16384x2048 1 := cmpf .olt main_v4 main_v5
  let main_c_1 : IVec S_ 1 := constantI S_ 1 1#1
  let main_v7 : IVec S_ 1 := (fun x v => Host.reduce IntOp.andi x v reducesTo_S16384x2048_S_d0_1 h_S_) main_v6 main_c_1
  let main_v8 : IVec S_ 1 := andi main_v3 main_v7
  main_v8
-- ==== Kernel.lean ====
abbrev S512x2048 : Shape := ⟨2, ![512, 2048]⟩
abbrev S16384x2048 : Shape := ⟨2, ![16384, 2048]⟩
abbrev S16384 : Shape := ⟨1, ![16384]⟩
abbrev S16384x1 : Shape := ⟨2, ![16384, 1]⟩
abbrev S512x1024 : Shape := ⟨2, ![512, 1024]⟩
abbrev S256x2048 : Shape := ⟨2, ![256, 2048]⟩
abbrev S512x1 : Shape := ⟨2, ![512, 1]⟩
abbrev S256x1024 : Shape := ⟨2, ![256, 1024]⟩
abbrev S512 : Shape := ⟨1, ![512]⟩
abbrev S256 : Shape := ⟨1, ![256]⟩
abbrev S256x1 : Shape := ⟨2, ![256, 1]⟩
abbrev S256x512 : Shape := ⟨2, ![256, 512]⟩
abbrev S512x1000 : Shape := ⟨2, ![512, 1000]⟩

abbrev nBuf : Space → Nat
  | .hbm => 6
  | .vmem => 8
  | .smem => 0
  | _ => 0

abbrev bufTy : (tb : Table) → Fin (tcTables nBuf tb) → BufTy
  | .hbm, ⟨0, _⟩ => ⟨S512x2048, .f32⟩
  | .hbm, ⟨1, _⟩ => ⟨S16384x2048, .f32⟩
  | .hbm, ⟨2, _⟩ => ⟨S16384, .i32⟩
  | .hbm, ⟨3, _⟩ => ⟨S16384x1, .i32⟩
  | .hbm, ⟨4, _⟩ => ⟨S512x1024, .f32⟩
  | .hbm, ⟨5, _⟩ => ⟨S512x1000, .f32⟩
  | .local _ .vmem, ⟨0, _⟩ => ⟨S256x2048, .f32⟩
  | .local _ .vmem, ⟨1, _⟩ => ⟨S256x2048, .f32⟩
  | .local _ .vmem, ⟨2, _⟩ => ⟨S512x2048, .f32⟩
  | .local _ .vmem, ⟨3, _⟩ => ⟨S512x2048, .f32⟩
  | .local _ .vmem, ⟨4, _⟩ => ⟨S512x1, .i32⟩
  | .local _ .vmem, ⟨5, _⟩ => ⟨S512x1, .i32⟩
  | .local _ .vmem, ⟨6, _⟩ => ⟨S256x1024, .f32⟩
  | .local _ .vmem, ⟨7, _⟩ => ⟨S256x1024, .f32⟩
  | _, _ => ⟨S512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  shapeCasts_S16384_S16384x1 : S16384.ShapeCasts S16384x1
  inb_S256x1024_S256x1024_0_0 : ∀ a, (![0, 0] : Fin 2 → Nat) a + S256x1024.size a ≤ S256x1024.size a
  h_S256x1024 : 0 < S256x1024.numel
  inb_S512x2048_S512x2048_0_0 : ∀ a, (![0, 0] : Fin 2 → Nat) a + S512x2048.size a ≤ S512x2048.size a
  h_S512x2048 : 0 < S512x2048.numel
  reduces_S512x2048_S512 : S512x2048.Reduces [1] S512
  shapeCasts_S512_S512x1 : S512.ShapeCasts S512x1
  broadcasts_S512x1_S512x2048 : S512x1.Broadcasts S512x2048
  bitsLt_bf16_f32 : FTy.bits .bf16 < FTy.bits .f32
  inb_S256x2048_S256x2048_0_0 : ∀ a, (![0, 0] : Fin 2 → Nat) a + S256x2048.size a ≤ S256x2048.size a
  h_S256x2048 : 0 < S256x2048.numel
  reduces_S256x2048_S256 : S256x2048.Reduces [1] S256
  shapeCasts_S256_S256x1 : S256.ShapeCasts S256x1
  broadcasts_S256x1_S256x512 : S256x1.Broadcasts S256x512
  inb_S512x1_S512x1_0_0 : ∀ a, (![0, 0] : Fin 2 → Nat) a + S512x1.size a ≤ S512x1.size a
  h_S512x1 : 0 < S512x1.numel
  shapeCasts_S512x1_S512x1 : S512x1.ShapeCasts S512x1
  iota_S512x1024_d1_w32 : S512x1024.Iotas .tc 32 [1]
  broadcasts_S512x1_S512x1024 : S512x1.Broadcasts S512x1024
  natLt_1_32 : 1 < 32
  shapeCasts_S256x1024_S256x1024 : S256x1024.ShapeCasts S256x1024
  slices_S512x1024_S512x1000_0_0 : S512x1024.Slices ![0, 0] S512x1000
  dot_S256x2048_S512x2048_S256x512_1_1_0_0_n_n_wf : DotDims.WF S256x2048 S512x2048 S256x512 [1] [1] [0] [0] [] []
  dot_S256x512_S512x1024_S256x1024_1_0_0_1_n_n_wf : DotDims.WF S256x512 S512x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x2048.size a ≤ S512x2048.size a
  hwx0_0 : ∀ i : grid0.Coords, EltTy.bits .f32 = 32 ∨ (Rect.block (s := S512x2048) S256x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S16384x2048.size a
  hwx0_1 : ∀ i : grid0.Coords, EltTy.bits .f32 = 32 ∨ (Rect.block (s := S16384x2048) S512x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S16384x1.size a
  hwx0_2 : ∀ i : grid0.Coords, EltTy.bits .i32 = 32 ∨ (Rect.block (s := S16384x1) S512x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x1024.size a ≤ S512x1024.size a
  hwx0_3 : ∀ i : grid0.Coords, EltTy.bits .f32 = 32 ∨ (Rect.block (s := S512x1024) S256x1024.size (cc0_transform_3 i) (hinb0_3 i)).WholeWords (EltTy.packing .f32)

variable [Facts₀]

def dot_S256x2048_S512x2048_S256x512_1_1_0_0_n_n : DotDims S256x2048 S512x2048 S256x512 where
  lhsContracting := [1]
  rhsContracting := [1]
  lhsNonContracting := [0]
  rhsNonContracting := [0]
  lhsBatch := []
  rhsBatch := []
  wf := dot_S256x2048_S512x2048_S256x512_1_1_0_0_n_n_wf
def dot_S256x512_S512x1024_S256x1024_1_0_0_1_n_n : DotDims S256x512 S512x1024 S256x1024 where
  lhsContracting := [1]
  rhsContracting := [0]
  lhsNonContracting := [0]
  rhsNonContracting := [1]
  lhsBatch := []
  rhsBatch := []
  wf := dot_S256x512_S512x1024_S256x1024_1_0_0_1_n_n_wf

abbrev win0_0 : Pipeline.Window sig grid0 :=
  Pipeline.Window.ofSpec (Memref.whole main_arg0) S256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S512x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S256x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S512x2048 : Shape := ⟨2, ![512, 2048]⟩
abbrev S16384x2048 : Shape := ⟨2, ![16384, 2048]⟩
abbrev S16384 : Shape := ⟨1, ![16384]⟩
abbrev S_ : Shape := ⟨0, ![]⟩
abbrev S16384x1 : Shape := ⟨2, ![16384, 1]⟩
abbrev S512x16384 : Shape := ⟨2, ![512, 16384]⟩
abbrev S512 : Shape := ⟨1, ![512]⟩
abbrev S512x1 : Shape := ⟨2, ![512, 1]⟩
abbrev S1x1000 : Shape := ⟨2, ![1, 1000]⟩
abbrev S16384x1000 : Shape := ⟨2, ![16384, 1000]⟩
abbrev S512x1000 : Shape := ⟨2, ![512, 1000]⟩

abbrev nBuf : Space → Nat
  | .hbm => 33
  | .vmem => 0
  | .smem => 0
  | _ => 0

abbrev bufTy : (tb : Table) → Fin (tcTables nBuf tb) → BufTy
  | .hbm, ⟨0, _⟩ => ⟨S512x2048, .f32⟩
  | .hbm, ⟨1, _⟩ => ⟨S16384x2048, .f32⟩
  | .hbm, ⟨2, _⟩ => ⟨S16384, .i32⟩
  | .hbm, ⟨3, _⟩ => ⟨S16384x2048, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S16384x1, .f32⟩
  | .hbm, ⟨8, _⟩ => ⟨S_, .f32⟩
  | .hbm, ⟨9, _⟩ => ⟨S16384x1, .f32⟩
  | .hbm, ⟨10, _⟩ => ⟨S16384x1, .f32⟩
  | .hbm, ⟨11, _⟩ => ⟨S16384x2048, .f32⟩
  | .hbm, ⟨12, _⟩ => ⟨S16384x2048, .f32⟩
  | .hbm, ⟨13, _⟩ => ⟨S512x16384, .f32⟩
  | .hbm, ⟨14, _⟩ => ⟨S512x2048, .f32⟩
  | .hbm, ⟨15, _⟩ => ⟨S_, .f32⟩
  | .hbm, ⟨16, _⟩ => ⟨S512, .f32⟩
  | .hbm, ⟨17, _⟩ => ⟨S512x1, .f32⟩
  | .hbm, ⟨18, _⟩ => ⟨S512x1, .f32⟩
  | .hbm, ⟨19, _⟩ => ⟨S_, .f32⟩
  | .hbm, ⟨20, _⟩ => ⟨S512x1, .f32⟩
  | .hbm, ⟨21, _⟩ => ⟨S512x1, .f32⟩
  | .hbm, ⟨22, _⟩ => ⟨S512x16384, .f32⟩
  | .hbm, ⟨23, _⟩ => ⟨S512x16384, .f32⟩
  | .hbm, ⟨24, _⟩ => ⟨S512x16384, .f32⟩
  | .hbm, ⟨25, _⟩ => ⟨S512x16384, .f32⟩
  | .hbm, ⟨26, _⟩ => ⟨S16384x1, .i32⟩
  | .hbm, ⟨27, _⟩ => ⟨S1x1000, .i32⟩
  | .hbm, ⟨28, _⟩ => ⟨S16384x1000, .i32⟩
  | .hbm, ⟨29, _⟩ => ⟨S16384x1000, .i32⟩
  | .hbm, ⟨30, _⟩ => ⟨S16384x1000, .i1⟩
  | .hbm, ⟨31, _⟩ => ⟨S16384x1000, .f32⟩
  | .hbm, ⟨32, _⟩ => ⟨S512x1000, .f32⟩
  | _, _ => ⟨S512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_call0_v2 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_call1_v0 : Ref sig .tc := ⟨.hbm, 14, rfl⟩
abbrev main_call1_cst : Ref sig .tc := ⟨.hbm, 15, rfl⟩
abbrev main_call1_v1 : Ref sig .tc := ⟨.hbm, 16, rfl⟩
abbrev main_call1_v2 : Ref sig .tc := ⟨.hbm, 17, rfl⟩
abbrev main_v6 : Ref sig .tc := ⟨.hbm, 18, rfl⟩
abbrev main_cst_0 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_call2_v0 : Ref sig .tc := ⟨.hbm, 26, rfl⟩
abbrev main_call2_v1 : Ref sig .tc := ⟨.hbm, 27, rfl⟩
abbrev main_call2_v2 : Ref sig .tc := ⟨.hbm, 28, rfl⟩
abbrev main_call2_v3 : Ref sig .tc := ⟨.hbm, 29, rfl⟩
abbrev main_call2_v4 : Ref sig .tc := ⟨.hbm, 30, rfl⟩
abbrev main_v13 : Ref sig .tc := ⟨.hbm, 31, rfl⟩
abbrev main_v14 : Ref sig .tc := ⟨.hbm, 32, rfl⟩

abbrev nD : Nat := 1
abbrev τ : Topo := Topo.v7x

variable {F : FTy → Type} [FloatOps F]

class Facts₀ : Prop where
  reducesTo_S16384x2048_S16384_d1 : S16384x2048.ReducesTo [1] S16384
  h_S_ : 0 < S_.numel
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S16384x1_S16384x2048_0_1 : S16384x1.BroadcastsInDim S16384x2048 (![0, 1] : Fin 2 → Fin S16384x2048.rank)
  reducesTo_S512x2048_S512_d1 : S512x2048.ReducesTo [1] S512
  bcast_S512_S512x1_0 : S512.BroadcastsInDim S512x1 (![0] : Fin 1 → Fin S512x1.rank)
  bcast_S_S512x1 : S_.BroadcastsInDim S512x1 (![] : Fin 0 → Fin S512x1.rank)
  bcast_S512x1_S512x16384_0_1 : S512x1.BroadcastsInDim S512x16384 (![0, 1] : Fin 2 → Fin S512x16384.rank)
  bcast_S16384x1_S16384x1000_0_1 : S16384x1.BroadcastsInDim S16384x1000 (![0, 1] : Fin 2 → Fin S16384x1000.rank)
  bcast_S1x1000_S16384x1000_0_1 : S1x1000.BroadcastsInDim S16384x1000 (![0, 1] : Fin 2 → Fin S16384x1000.rank)
  dot_S512x2048_S16384x2048_S512x16384_1_1_0_0_n_n_wf : DotDims.WF S512x2048 S16384x2048 S512x16384 [1] [1] [0] [0] [] []
  dot_S512x16384_S16384x1000_S512x1000_1_0_0_1_n_n_wf : DotDims.WF S512x16384 S16384x1000 S512x1000 [1] [0] [0] [1] [] []

variable [Facts₀]

def dot_S512x2048_S16384x2048_S512x16384_1_1_0_0_n_n : DotDims S512x2048 S16384x2048 S512x16384 where
  lhsContracting := [1]
  rhsContracting := [1]
  lhsNonContracting := [0]
  rhsNonContracting := [0]
  lhsBatch := []
  rhsBatch := []
  wf := dot_S512x2048_S16384x2048_S512x16384_1_1_0_0_n_n_wf
def dot_S512x16384_S16384x1000_S512x1000_1_0_0_1_n_n : DotDims S512x16384 S16384x1000 S512x1000 where
  lhsContracting := [1]
  rhsContracting := [0]
  lhsNonContracting := [0]
  rhsNonContracting := [1]
  lhsBatch := []
  rhsBatch := []
  wf := dot_S512x16384_S16384x1000_S512x1000_1_0_0_1_n_n_wf

class Facts : Prop extends Facts₀ where

variable [Facts]
-- ==== Proof.LibRecipOneHot.lean ====
/-
  General facts on the extended reals and on small vector operations, used where a program multiplies by a
  reciprocal and another divides, and where a one-hot matrix is built from an integer equality test.

  * A square is nonnegative and the root of a nonnegative number is nonnegative, infinities included; so a norm with a
    positive guard added is positive, hence not zero.
  * For y ≠ 0, a · (1 / y) = a / y (both are a · y⁻¹; the f32 pattern 0x3F800000 is the number one).
  * The one-hot entry "label = class" as an extended real, read from the equality test either as an unsigned number
    (label on the left) or widened to 32 bits and read signed (class on the left).
  * A column [a, 1] broadcast along the second axis to [a, b] reads, at (p, k), the column at (p, 0).
-/
import Idealize.ShloMosaic.PureOps.Ideal.Laws
import Idealize.ShloMosaic.Lib.IdealHost
import Idealize.ShloMosaic.Lib.ValueIdx
import Idealize.ShloMosaic.Lib.Pipeline.Value

noncomputable section

namespace Cert.Lib.RecipOneHot

open Idealize.ShloMosaic Idealize.ShloMosaic.ValueIdx

/-- A square is nonnegative on the extended reals. -/
theorem mul_self_nonneg' (a : EReal) : 0 ≤ a * a := by
  induction a using EReal.rec with
  | bot => simp
  | top => simp
  | coe r => rw [← EReal.coe_mul]; exact EReal.coe_nonneg.mpr (mul_self_nonneg r)

/-- The root of a nonnegative extended real is nonnegative. -/
theorem sqrt_nonneg' {a : EReal} (h : 0 ≤ a) : 0 ≤ Ideal.sqrt a := by
  induction a using EReal.rec with
  | bot => simp at h
  | top => simp
  | coe r =>
    have hr : ¬ r < 0 := not_lt.mpr (EReal.coe_nonneg.mp h)
    rw [Ideal.sqrt_coe, if_neg hr]
    exact EReal.coe_nonneg.mpr (Real.sqrt_nonneg r)

/-- The root of a sum of squares plus a positive guard is positive. -/
theorem guarded_norm_pos {ι : Type} (s : Finset ι) (a : ι → EReal) {g : EReal} (hg : 0 < g) :
    0 < Ideal.sqrt (∑ d ∈ s, a d * a d) + g :=
  lt_of_lt_of_le hg (le_add_of_nonneg_left (sqrt_nonneg' (Finset.sum_nonneg fun d _ => mul_self_nonneg' (a d))))

/-- Multiplying by the reciprocal of a nonzero number is dividing by it. -/
theorem mul_recip (a y : EReal) (hy : y ≠ 0) : a * Ideal.div (Ideal.ofBits .f32 0x3F800000#32) y = Ideal.div a y := by
  rw [Ideal.ofBits_one_f32]
  unfold Ideal.div
  rw [if_neg hy, if_neg hy, one_mul]

/-- The one-hot entry: 1 when the label is the class, else 0. -/
def hot (y : BitVec 32) (c : ℕ) : EReal := if y = BitVec.ofNat 32 c then 1 else 0

/-- Equality test read as an unsigned number, the label on the left. -/
theorem hot_unsigned (y : BitVec 32) (c : ℕ) :
    FloatOps.uitofp (F := Ideal) .f32 (IntOp.cmpi .eq y (BitVec.ofNat 32 c)) = hot y c := by
  unfold hot
  show (((IntOp.cmpi .eq y (BitVec.ofNat 32 c)).toNat : ℝ) : EReal) = _
  by_cases h : y = BitVec.ofNat 32 c
  · simp [IntOp.cmpi, h]
  · simp [IntOp.cmpi, h]

/-- Equality test widened to 32 bits and read as a signed number, the class on the left. -/
theorem hot_signed (y : BitVec 32) (c : ℕ) :
    FloatOps.sitofp (F := Ideal) .f32 ((IntOp.cmpi .eq (BitVec.ofNat 32 c) y).setWidth 32) = hot y c := by
  unfold hot
  show ((((IntOp.cmpi .eq (BitVec.ofNat 32 c) y).setWidth 32).toInt : ℝ) : EReal) = _
  by_cases h : y = BitVec.ofNat 32 c
  · subst h; simp [IntOp.cmpi]
  · have hb : (BitVec.ofNat 32 c == y) = false := beq_eq_false_iff_ne.mpr fun e => h e.symm
    simp [IntOp.cmpi, h, hb]

/-- A column [a, 1] broadcast along the second axis reads, at (p, k), the column at (p, 0). -/
theorem broadcastTo_col_apply {α : Type} {a b : ℕ} (x : (⟨2, ![a, 1]⟩ : Shape).Idx → α)
    (h : (⟨2, ![a, 1]⟩ : Shape).Broadcasts ⟨2, ![a, b]⟩) (p : Fin a) (k : Fin b) :
    broadcastTo ⟨2, ![a, b]⟩ x h (ix2 p k) = x (ix2 p (0 : Fin 1)) :=
  broadcastTo_apply x h _ _ (fun c => by
    match c with
    | ⟨0, _⟩ =>
      show p.val = if a = 1 then 0 else p.val
      split
      · have := p.isLt; omega
      · rfl
    | ⟨1, _⟩ => show (0 : ℕ) = if (1 : ℕ) = 1 then 0 else k.val; rw [if_pos rfl])

end Cert.Lib.RecipOneHot

end
-- ==== Proof.Spec.lean ====
/-
  Label aggregation by scaled cosine similarity, as mathematics on the extended reals.

  For a query row x and a support row s (both of length 2048) let ‖a‖ε = √(Σ a_d²) + ε be the guarded norm,
      sim x s   = Σ_d x_d · (s_d / ‖s‖ε)                      (the similarity of x to the normalised s),
      score x s = (|sim x s| / ‖x‖ε) · sim x s                 (the quadratic rescaling),
  and for a label y and a class c let hot y c be 1 when y = c and 0 otherwise. The result at (query b, class c) is
      Σ_r score x_b s_r · hot y_r c                             over the 16384 support rows r.

  Two spellings of a quotient meet here: a / n and a · (1 / n). The guarded norm is positive on every extended
  real row (a sum of squares is nonnegative, its root is nonnegative, the guard is positive), so it is never zero
  and on the extended reals both spellings are a · n⁻¹ — no finiteness of the inputs is needed.
-/
import proofs.«153246_j87368224735692_2_alg».proof.Proof.LibRecipOneHot

noncomputable section

namespace Cert.Knn

open Idealize.ShloMosaic
open Cert.Lib.RecipOneHot

/-- The guard ε added to a norm: the f32 nearest to 1e-12. -/
abbrev guard : EReal := Ideal.ofBits .f32 0x2B8CBCCC#32

theorem guard_pos : 0 < guard := by
  show (0 : EReal) < Ideal.ofBits .f32 0x2B8CBCCC#32
  simp [Ideal.ofBits, Ideal.ieee, -EReal.coe_mul]

/-- The guarded norm of a row. -/
def gnorm (a : Fin 2048 → EReal) : EReal := Ideal.sqrt (∑ d, a d * a d) + guard

theorem gnorm_pos (a : Fin 2048 → EReal) : 0 < gnorm a := guarded_norm_pos Finset.univ a guard_pos

theorem gnorm_ne (a : Fin 2048 → EReal) : gnorm a ≠ 0 := (gnorm_pos a).ne'

/-- The similarity of a query row to a support row normalised by its guarded norm. -/
def sim (x s : Fin 2048 → EReal) : EReal := ∑ d, x d * Ideal.div (s d) (gnorm s)

/-- The same with the support row scaled by the reciprocal of its norm. -/
theorem sim_recip (x s : Fin 2048 → EReal) :
    ∑ d, x d * (s d * Ideal.div (Ideal.ofBits .f32 0x3F800000#32) (gnorm s)) = sim x s :=
  Finset.sum_congr rfl fun d _ => by rw [mul_recip _ _ (gnorm_ne s)]

/-- The absolute value as the float operations take it. -/
abbrev absE (a : EReal) : EReal := FloatOps.absf (F := Ideal) (φ := .f32) a

/-- The rescaled similarity. -/
def score (x s : Fin 2048 → EReal) : EReal := Ideal.div (absE (sim x s)) (gnorm x) * sim x s

theorem score_recip (x s : Fin 2048 → EReal) :
    absE (sim x s) * Ideal.div (Ideal.ofBits .f32 0x3F800000#32) (gnorm x) * sim x s = score x s := by
  unfold score
  rw [mul_recip _ _ (gnorm_ne x)]

/-- The aggregate at one query row and one class: the scores of the support rows of that class, summed. -/
def agg (x : Fin 2048 → EReal) (S : Fin 16384 → Fin 2048 → EReal) (Y : Fin 16384 → BitVec 32) (c : ℕ) : EReal :=
  ∑ r : Fin 16384, score x (S r) * hot (Y r) c

end Cert.Knn

end
-- ==== Proof.RefSpec.lean ====
/-
  The reference program computes the aggregate of Spec: read one operation at a time, its result at
  (query b, class c) is the sum over the support rows r of score x_b s_r · hot y_r c. Its norms are spelled
  "0 + Σ" (a host sum starts from its initial value), its quotients are divisions, its one-hot test has the label on
  the left and is read unsigned.
-/
import proofs.«153246_j87368224735692_2_alg».proof.Proof.Gen.ReferenceIdeal.Read
import proofs.«153246_j87368224735692_2_alg».proof.Proof.Spec
import Idealize.ShloMosaic.Lib.ValueIdx

noncomputable section

open Idealize.ShloMosaic Idealize.ShloMosaic.ValueIdx

namespace Cert.ReferenceIdeal.RefSpec

open Cert.ReferenceIdeal Cert.ReferenceIdeal.Read Cert.Knn Cert.Lib.RecipOneHot

/-- Two indices of a two-axis shape with equal coordinates are equal. -/
theorem idx2_ext {n0 n1 : Nat} (u v : (⟨2, ![n0, n1]⟩ : Shape).Idx) (h0 : (u 0).val = (v 0).val) (h1 : (u 1).val = (v 1).val) :
    u = v := funext fun a => Fin.ext (by match a with | ⟨0, _⟩ => exact h0 | ⟨1, _⟩ => exact h1)

variable (x0 : S512x2048.Idx → EReal) (x1 : S16384x2048.Idx → EReal) (x2 : S16384.Idx → BitVec 32)

/-- The guarded norm of a support row, as the reference computes it. -/
theorem snorm_eq (j : S16384x1.Idx) : val_main_v2 (F := Ideal) x1 j = gnorm (fun d => x1 (ix2 (j 0) d)) := by
  rw [val_main_v2_apply, val_main_v0_apply, val_main_call0_v2_apply, val_main_call0_v1_apply, val_main_v1_apply,
    val_main_cst_apply, val_main_call0_cst_apply]
  simp only [val_main_call0_v0_apply, Ideal.addf_def, Ideal.hostUnary_sqrt_def, Ideal.mulf_def, Ideal.ofBits_def,
    Ideal.ofBits_zero_f32, zero_add]
  unfold gnorm
  have e : ∀ d : Fin 2048, idx_main_call0_v1 (idx_main_call0_v2 j) d = ix2 (j 0) d := fun d => idx2_ext _ _ rfl rfl
  simp only [e]
  rfl

/-- The guarded norm of a query row, as the reference computes it. -/
theorem qnorm_eq (j : S512x1.Idx) : val_main_v8 (F := Ideal) x0 j = gnorm (fun d => x0 (ix2 (j 0) d)) := by
  rw [val_main_v8_apply, val_main_v6_apply, val_main_call1_v2_apply, val_main_call1_v1_apply, val_main_v7_apply,
    val_main_cst_0_apply, val_main_call1_cst_apply]
  simp only [val_main_call1_v0_apply, Ideal.addf_def, Ideal.hostUnary_sqrt_def, Ideal.mulf_def, Ideal.ofBits_def,
    Ideal.ofBits_zero_f32, zero_add]
  unfold gnorm
  have e : ∀ d : Fin 2048, idx_main_call1_v1 (idx_main_call1_v2 j) d = ix2 (j 0) d := fun d => idx2_ext _ _ rfl rfl
  simp only [e]
  rfl

/-- The similarity of query row b to support row r. -/
theorem sim_eq (j : S512x16384.Idx) :
    val_main_v5 (F := Ideal) x0 x1 j = sim (fun d => x0 (ix2 (j 0) d)) (fun d => x1 (ix2 (j 1) d)) := by
  rw [val_main_v5_apply]
  unfold sim
  refine Finset.sum_congr rfl fun d _ => ?_
  rw [val_main_v4_apply, val_main_v3_apply, snorm_eq, Ideal.hostDivf_def]
  have el : lidx_main_v5 j d = ix2 (j 0) d := idx2_ext _ _ rfl rfl
  have er : ridx_main_v5 j d = ix2 (j 1) d := idx2_ext _ _ rfl rfl
  rw [el, er]
  rfl

/-- The rescaled similarity. -/
theorem score_eq (j : S512x16384.Idx) :
    val_main_v12 (F := Ideal) x0 x1 j = score (fun d => x0 (ix2 (j 0) d)) (fun d => x1 (ix2 (j 1) d)) := by
  rw [val_main_v12_apply, val_main_v11_apply, val_main_v9_apply, val_main_v10_apply, qnorm_eq, sim_eq]
  rfl

/-- The one-hot entry of support row r at class c. -/
theorem hot_eq (j : S16384x1000.Idx) : val_main_v13 (F := Ideal) x2 j = hot (x2 (ix1 (j 0))) (j 1).val := by
  rw [val_main_v13_apply, val_main_call2_v4_apply, val_main_call2_v2_apply, val_main_call2_v0_apply,
    val_main_call2_v3_apply, val_main_call2_v1_apply]
  have e : idx_main_call2_v0 (idx_main_call2_v2 j) = ix1 (j 0) := funext fun a => Fin.ext (by match a with | ⟨0, _⟩ => rfl)
  rw [e]
  exact hot_unsigned _ _

/-- The reference's result, index by index, is the aggregate. -/
theorem result_eq (i : S512x1000.Idx) :
    val_main_v14 (F := Ideal) x0 x1 x2 i
      = agg (fun d => x0 (ix2 (i 0) d)) (fun r d => x1 (ix2 r d)) (fun r => x2 (ix1 r)) (i 1).val := by
  rw [val_main_v14_apply]
  unfold agg
  refine Finset.sum_congr rfl fun r _ => ?_
  rw [score_eq, hot_eq]
  rfl

end Cert.ReferenceIdeal.RefSpec
end
-- ==== Proof.KAcc.lean ====
/-
  The output block of the aggregation kernel as a running sum over the grid.

  The grid has 64 points, point n = 32·b + s handling query rows 256·b … 256·b + 255 and support rows
  512·s … 512·s + 511. At a point with s = 0 the body zeroes the output block and adds the point's contribution;
  at every other point it adds the contribution to what the point before left. So after point n the block holds
  the sum of the contributions of the points 32·(n / 32), …, n, index by index, on the extended reals.
-/
import proofs.«153246_j87368224735692_2_alg».proof.Proof.Gen.KernelIdeal.Frame
import Idealize.ShloMosaic.Lib.Pipeline.Value
import Idealize.ShloMosaic.Lib.Tactic
import Idealize.ShloMosaic.PureOps.Ideal.Laws

noncomputable section

open Idealize.ShloMosaic Idealize.ShloMosaic.TcCoe Idealize.SL.Sem
open Idealize.ShloMosaic.Pipeline (Dat)

namespace Cert.KernelIdeal.Acc
open Cert.KernelIdeal Cert.KernelIdeal.Gen

section AnyF
variable {F : FTy → Type} [FloatOps F]

theorem hz : (![0, 0] : Fin 2 → Nat) = fun _ => 0 := funext fun a => by fin_cases a <;> rfl

/-- A point that does not reset: the block holding `xo` ends at `xo` plus the contribution of the three input blocks. -/
theorem out_B (c : Dev nD) (i : grid0.Coords) (a2 : Memref sig .tc .vmem S256x2048 .f32) (h2 : a2.IsWhole)
    (a3 : Memref sig .tc .vmem S512x2048 .f32) (h3 : a3.IsWhole) (a4 : Memref sig .tc .vmem S512x1 .i32) (h4 : a4.IsWhole)
    (a5 : Memref sig .tc .vmem S256x1024 .f32) (h5 : a5.IsWhole) (hc : ¬cond0_0 i)
    (x0 : Vec F S256x2048 .f32) (x1 : Vec F S512x2048 .f32) (x2 : Vec F S512x1 .i32) (xo : Vec F S256x1024 .f32) :
    out0_B_3 c i a2 h2 a3 h3 a4 h4 a5 h5 hc x0 x1 x2 xo = k0_pay1 (k0_pay3 x1 x0 x2) xo := by
  unfold out0_B_3
  rw [View.read_writes_eq_canon _ _ _ (cover0_B_3 c i a2 h2 a3 h3 a4 h4 a5 h5 hc x0 x1 x2 xo)]
  unfold kernelRun0_B
  dsimp only
  sl_unfold_words
  rw [View.canon_unit_zero hz]
  simp only [View.readAt_eq_ld, h2.read_unread, h3.read_unread, h4.read_unread, h5.read_unread,
    View.ld_unit_zero (S := S256x1024) hz, View.ld_unit_zero (S := S512x2048) hz, View.ld_unit_zero (S := S256x2048) hz,
    View.ld_unit_zero (S := S512x1) hz]

/-- A point that resets: the block ends at the zero block plus the contribution. -/
theorem out_A (c : Dev nD) (i : grid0.Coords) (a2 : Memref sig .tc .vmem S256x2048 .f32) (h2 : a2.IsWhole)
    (a3 : Memref sig .tc .vmem S512x2048 .f32) (h3 : a3.IsWhole) (a4 : Memref sig .tc .vmem S512x1 .i32) (h4 : a4.IsWhole)
    (a5 : Memref sig .tc .vmem S256x1024 .f32) (h5 : a5.IsWhole) (hc : cond0_0 i)
    (x0 : Vec F S256x2048 .f32) (x1 : Vec F S512x2048 .f32) (x2 : Vec F S512x1 .i32) :
    out0_A_3 c i a2 h2 a3 h3 a4 h4 a5 h5 hc x0 x1 x2 = k0_pay1 (k0_pay3 x1 x0 x2) (k0_pay2 (F := F)) := by
  unfold out0_A_3
  rw [View.read_writes_eq_canon _ _ _ (cover0_A_3 c i a2 h2 a3 h3 a4 h4 a5 h5 hc x0 x1 x2)]
  unfold kernelRun0_A
  dsimp only
  sl_unfold_words
  rw [View.canon_cons_unit_zero (S := S256x1024) hz, View.readCov_unit_zero (S := S256x1024) _ hz]
  simp only [View.readAt_eq_ld, h2.read_unread, h3.read_unread, h4.read_unread,
    View.ld_unit_zero (S := S256x1024) hz, View.ld_unit_zero (S := S512x2048) hz, View.ld_unit_zero (S := S256x2048) hz,
    View.ld_unit_zero (S := S512x1) hz]

end AnyF

/-! ## On the extended reals -/

variable (m : (ℓ : Loc nD τ sig) → Buf (Elt Ideal) ℓ)

/-- The accumulating store adds, index by index. -/
theorem pay1_apply (v39 : FVec Ideal S256x1024 .f32) (v40 : Vec Ideal S256x1024 .f32) (j : S256x1024.Idx) :
    k0_pay1 (F := Ideal) v39 v40 j = v40 j + v39 j := by
  unfold k0_pay1
  simp only [shapeCast_self]
  rfl

/-- The reset stores zeros. -/
theorem pay2_apply (j : S256x1024.Idx) : k0_pay2 (F := Ideal) j = 0 := by
  unfold k0_pay2
  exact Ideal.ofBits_zero_f32

/-- The contribution of grid point `n`: the body's value on the point's three input blocks. -/
def contrib (c : Dev nD) (n : ℕ) : Vec Ideal S256x1024 .f32 :=
  if h : n < cfg0.N then k0_pay3 (F := Ideal) (iblk m c 1 ⟨n, h⟩) (iblk m c 0 ⟨n, h⟩) (iblk m c 2 ⟨n, h⟩) else fun _ => 0

theorem contrib_of_lt (c : Dev nD) (n : ℕ) (h : n < cfg0.N) :
    contrib m c n = k0_pay3 (F := Ideal) (iblk m c 1 ⟨n, h⟩) (iblk m c 0 ⟨n, h⟩) (iblk m c 2 ⟨n, h⟩) := dif_pos h

/-- After point `n` the output block holds the contributions of the points of `n`'s batch tile up to `n`, summed. -/
theorem outsAt_eq (c : Dev nD) : ∀ (n : ℕ) (h : n < cfg0.N) (j : S256x1024.Idx),
    outsAt0 (F := Ideal) m c n h j = ∑ i ∈ Finset.range (n % 32 + 1), contrib m c (32 * (n / 32) + i) j
  | 0, h, j => by
    rw [outsAt0_A m c ⟨0, h⟩ rfl, out_A, pay1_apply, pay2_apply, zero_add]
    show _ = ∑ i ∈ Finset.range 1, contrib m c (32 * (0 / 32) + i) j
    rw [Finset.sum_range_one, contrib_of_lt m c _ h]
  | n + 1, h, j => by
    by_cases h0 : (n + 1) % 32 = 0
    · rw [outsAt0_A m c ⟨n + 1, h⟩ h0, out_A, pay1_apply, pay2_apply, zero_add, h0, zero_add, Finset.sum_range_one,
        add_zero, show 32 * ((n + 1) / 32) = n + 1 by omega, contrib_of_lt m c _ h]
    · rw [outsAt0_B m c ⟨n + 1, h⟩ h0, out_B, pay1_apply]
      show outsAt0 m c n _ j + _ = _
      rw [outsAt_eq c n _ j, show (n + 1) % 32 = n % 32 + 1 by omega, show (n + 1) / 32 = n / 32 by omega,
        Finset.sum_range_succ (fun i => contrib m c (32 * (n / 32) + i) j) (n % 32 + 1),
        show 32 * (n / 32) + (n % 32 + 1) = n + 1 by omega, contrib_of_lt m c _ h]

end Cert.KernelIdeal.Acc
end
-- ==== Proof.LibRowRead.lean ====
/-
  Reading row-wise operations of a two-dimensional array index by index.

  A sum over the second axis of an [a, b] array, taken by the accelerator's lane reduction or by the host's
  reduction, is at row p the sum over k < b of the array at (p, k). A vector [a] cast to the column [a, 1] reads at
  (p, 0) the vector at p. Two arrays of one shape laid side by side along the second axis (or one above the other
  along the first) read, in the first piece's range, the first piece, and past it the second piece shifted back.
-/
import Idealize.ShloMosaic.PureOps.Ideal.Laws
import Idealize.ShloMosaic.Lib.ValueIdx
import Idealize.ShloMosaic.Lib.ValueLayout
import Idealize.ShloMosaic.Lib.Pipeline.Value
import Idealize.ShloMosaic.Lib.IdealHost

noncomputable section

namespace Cert.Lib.RowRead

open Idealize.ShloMosaic Idealize.ShloMosaic.ValueIdx

variable {α : Type}

/-- The source index of a reduction over the second axis: row p, coordinate k. -/
theorem lift_row {a b : ℕ} (h : (⟨2, ![a, b]⟩ : Shape).Reduces [(1 : Fin 2)] ⟨1, ![a]⟩) (p : Fin a) (k : Fin b) :
    h.lift (ix1 p) k = ix2 p k := by
  funext c; apply Fin.ext
  match c with
  | ⟨0, h0⟩ =>
    show h.liftVal (ix1 p) k.val ⟨0, h0⟩ = p.val
    unfold Shape.Reduces.liftVal
    split
    · next hc => exact absurd hc Nat.zero_ne_one
    · split
      · rfl
      · next hlt => exact absurd Nat.zero_lt_one hlt
  | ⟨1, h1⟩ =>
    show h.liftVal (ix1 p) k.val ⟨1, h1⟩ = k.val
    unfold Shape.Reduces.liftVal
    split
    · rfl
    · next hc => exact absurd rfl hc

/-- The accelerator's lane sum at row p. -/
theorem lane_sum {a b : ℕ} (src : FVec Ideal ⟨2, ![a, b]⟩ .f32) (h : (⟨2, ![a, b]⟩ : Shape).Reduces [(1 : Fin 2)] ⟨1, ![a]⟩)
    (hφ : FKind.Formats .f32) (hacc : (0x00000000#32 : BitVec FTy.f32.bits) = FKind.add.neutral .f32 hφ) (p : Fin a) :
    multiReduction .add [(1 : Fin 2)] ⟨1, ![a]⟩ src 0x00000000#32 h hφ hacc (ix1 p) = ∑ k : Fin b, src (ix2 p k) :=
  (Ideal.multiReduction_add_single src 0x00000000#32 h hφ hacc (ix1 p)).trans
    (Finset.sum_congr rfl fun k _ => congrArg src (lift_row h p k))

/-- The host's row sum at row p: the initial value plus the row's sum. -/
theorem host_row_sum {a b : ℕ} {u : Shape} (x : FVec Ideal ⟨2, ![a, b]⟩ .f32) (init : u.Idx → Ideal .f32)
    (h' : (⟨2, ![a, b]⟩ : Shape).ReducesTo [(1 : Fin 2)] ⟨1, ![a]⟩) (hu : 0 < u.numel)
    (h : (⟨2, ![a, b]⟩ : Shape).Reduces [(1 : Fin 2)] ⟨1, ![a]⟩) (p : Fin a) :
    Host.reduceAdd x init h' hu (ix1 p) = init (Shape.Idx.first hu) + ∑ k : Fin b, x (ix2 p k) :=
  (hostReduceAdd_apply x init h' hu (ix1 p)).trans
    ((Ideal.hostReduceAdd_single h' h x _ (ix1 p)).trans
      (congrArg (fun z => init (Shape.Idx.first hu) + z) (Finset.sum_congr rfl fun k _ => congrArg x (lift_row h p k))))

/-- A vector cast to a column. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- Two [a, b] arrays side by side: in the first b columns, the first. -/
theorem concat_cols_left {a b : ℕ} (x y : (⟨2, ![a, b]⟩ : Shape).Idx → α)
    (h : Shape.Concatenates [(⟨2, ![a, b]⟩ : Shape), ⟨2, ![a, b]⟩] ⟨2, ![a, b + b]⟩ (1 : Fin 2)) (p : Fin a) (k : Fin b) :
    concatenate ⟨2, ![a, b + b]⟩ (1 : Fin 2) [⟨⟨2, ![a, b]⟩, x⟩, ⟨⟨2, ![a, b]⟩, y⟩] h (ix2 p (Fin.castAdd b k)) = x (ix2 p k) :=
  concatenate_ofFn_apply (t := ⟨2, ![a, b + b]⟩) (s₁ := ⟨2, ![a, b]⟩) (1 : Fin 2) (N := 2) ![x, y] h rfl b rfl (ix2 p (Fin.castAdd b k))
    (0 : Fin 2) (Nat.div_eq_of_lt k.isLt) (ix2 p k) (Nat.mod_eq_of_lt k.isLt).symm
    (fun c hc => by match c with | ⟨0, _⟩ => rfl | ⟨1, _⟩ => exact absurd rfl hc)

/-- … and in the last b columns, the second. -/
theorem concat_cols_right {a b : ℕ} (x y : (⟨2, ![a, b]⟩ : Shape).Idx → α)
    (h : Shape.Concatenates [(⟨2, ![a, b]⟩ : Shape), ⟨2, ![a, b]⟩] ⟨2, ![a, b + b]⟩ (1 : Fin 2)) (p : Fin a) (k : Fin b) :
    concatenate ⟨2, ![a, b + b]⟩ (1 : Fin 2) [⟨⟨2, ![a, b]⟩, x⟩, ⟨⟨2, ![a, b]⟩, y⟩] h (ix2 p (Fin.natAdd b k)) = y (ix2 p k) :=
  concatenate_ofFn_apply (t := ⟨2, ![a, b + b]⟩) (s₁ := ⟨2, ![a, b]⟩) (1 : Fin 2) (N := 2) ![x, y] h rfl b rfl (ix2 p (Fin.natAdd b k))
    (1 : Fin 2) (by show (b + k.val) / b = 1; have := k.isLt; rw [Nat.add_div_left _ (by omega), Nat.div_eq_of_lt k.isLt])
    (ix2 p k) (by show k.val = (b + k.val) % b; rw [Nat.add_mod_left, Nat.mod_eq_of_lt k.isLt])
    (fun c hc => by match c with | ⟨0, _⟩ => rfl | ⟨1, _⟩ => exact absurd rfl hc)

/-- Two [a, b] arrays one above the other: in the first a rows, the first. -/
theorem concat_rows_top {a b : ℕ} (x y : (⟨2, ![a, b]⟩ : Shape).Idx → α)
    (h : Shape.Concatenates [(⟨2, ![a, b]⟩ : Shape), ⟨2, ![a, b]⟩] ⟨2, ![a + a, b]⟩ (0 : Fin 2)) (p : Fin a) (k : Fin b) :
    concatenate ⟨2, ![a + a, b]⟩ (0 : Fin 2) [⟨⟨2, ![a, b]⟩, x⟩, ⟨⟨2, ![a, b]⟩, y⟩] h (ix2 (Fin.castAdd a p) k) = x (ix2 p k) :=
  concatenate_ofFn_apply (t := ⟨2, ![a + a, b]⟩) (s₁ := ⟨2, ![a, b]⟩) (0 : Fin 2) (N := 2) ![x, y] h rfl a rfl (ix2 (Fin.castAdd a p) k)
    (0 : Fin 2) (Nat.div_eq_of_lt p.isLt) (ix2 p k) (Nat.mod_eq_of_lt p.isLt).symm
    (fun c hc => by match c with | ⟨0, _⟩ => exact absurd rfl hc | ⟨1, _⟩ => rfl)

/-- … and in the last a rows, the second. -/
theorem concat_rows_bottom {a b : ℕ} (x y : (⟨2, ![a, b]⟩ : Shape).Idx → α)
    (h : Shape.Concatenates [(⟨2, ![a, b]⟩ : Shape), ⟨2, ![a, b]⟩] ⟨2, ![a + a, b]⟩ (0 : Fin 2)) (p : Fin a) (k : Fin b) :
    concatenate ⟨2, ![a + a, b]⟩ (0 : Fin 2) [⟨⟨2, ![a, b]⟩, x⟩, ⟨⟨2, ![a, b]⟩, y⟩] h (ix2 (Fin.natAdd a p) k) = y (ix2 p k) :=
  concatenate_ofFn_apply (t := ⟨2, ![a + a, b]⟩) (s₁ := ⟨2, ![a, b]⟩) (0 : Fin 2) (N := 2) ![x, y] h rfl a rfl (ix2 (Fin.natAdd a p) k)
    (1 : Fin 2) (by show (a + p.val) / a = 1; have := p.isLt; rw [Nat.add_div_left _ (by omega), Nat.div_eq_of_lt p.isLt])
    (ix2 p k) (by show p.val = (a + p.val) % a; rw [Nat.add_mod_left, Nat.mod_eq_of_lt p.isLt])
    (fun c hc => by match c with | ⟨0, _⟩ => exact absurd rfl hc | ⟨1, _⟩ => rfl)

end Cert.Lib.RowRead

end
-- ==== Proof.KPay.lean ====
/-
  The kernel body's arithmetic at one grid point, read index by index on the extended reals.

  From a block of 256 query rows, a block of 512 support rows and the 512 labels of those rows the body computes a
  [256, 1024] block: at (p, c) the sum over the 512 support rows k of score (query p) (support k) · hot (label k) c.
  The body scales by reciprocals of the guarded norms where the mathematics divides; Spec joins the two spellings.
-/
import proofs.«153246_j87368224735692_2_alg».proof.Proof.Gen.KernelIdeal.Skeleton
import proofs.«153246_j87368224735692_2_alg».proof.Proof.Spec
import proofs.«153246_j87368224735692_2_alg».proof.Proof.LibRowRead
import Idealize.ShloMosaic.Lib.ValueIdx
import Idealize.ShloMosaic.Lib.Pipeline.Value
import Idealize.ShloMosaic.PureOps.Ideal.Laws

noncomputable section

open Idealize.ShloMosaic Idealize.ShloMosaic.ValueIdx

namespace Cert.KernelIdeal.Pay

open Cert.KernelIdeal Cert.KernelIdeal.Gen Cert.Knn Cert.Lib.RecipOneHot

variable (v3 : Vec Ideal S512x2048 .f32) (v15 : Vec Ideal S256x2048 .f32) (v30 : Vec Ideal S512x1 .i32)

/-! ## The body's intermediate values, named -/

/-- The reciprocals of the guarded norms of the support rows, a column. -/
def srecip : FVec Ideal S512x1 .f32 :=
  divf (broadcast S512x1 (Scalar.ofBits .f32 0x3F800000#32))
    (addf (sqrt (shapeCast S512x1 (multiReduction .add [1] S512 (mulf v3 v3) 0x00000000#32 reduces_S512x2048_S512 (.inl rfl) rfl) shapeCasts_S512_S512x1))
      (broadcast S512x1 (Scalar.ofBits .f32 0x2B8CBCCC#32)))

/-- The normalised support rows. -/
def wgt : FVec Ideal S512x2048 .bf16 :=
  truncf .bf16 (mulf v3 (broadcastTo S512x2048 (srecip v3) broadcasts_S512x1_S512x2048)) bitsLt_bf16_f32

/-- The reciprocals of the guarded norms of the query rows, a column. -/
def qrecip : FVec Ideal S256x1 .f32 :=
  divf (broadcast S256x1 (Scalar.ofBits .f32 0x3F800000#32))
    (addf (sqrt (shapeCast S256x1 (multiReduction .add [1] S256 (mulf v15 v15) 0x00000000#32 reduces_S256x2048_S256 (.inl rfl) rfl) shapeCasts_S256_S256x1))
      (broadcast S256x1 (Scalar.ofBits .f32 0x2B8CBCCC#32)))

/-- The similarities of the 256 query rows to the 512 normalised support rows. -/
def simv : FVec Ideal S256x512 .f32 :=
  matmul dot_S256x2048_S512x2048_S256x512_1_1_0_0_n_n none (truncf .bf16 v15 bitsLt_bf16_f32) (wgt v3)
    (constant S256x512 .f32 0x00000000#32)

/-- The rescaled similarities. -/
def scorev : FVec Ideal S256x512 .bf16 :=
  truncf .bf16 (mulf (mulf (absf (simv v3 v15)) (broadcastTo S256x512 (qrecip v15) broadcasts_S256x1_S256x512)) (simv v3 v15))
    bitsLt_bf16_f32

/-- The one-hot rows of the 512 labels over 1024 padded classes. -/
def hotv : FVec Ideal S512x1024 .bf16 :=
  truncf .bf16 (sitofp .f32 (extui 32 (cmpi .eq (iota .tc S512x1024 32 [1] iota_S512x1024_d1_w32)
    (broadcastTo S512x1024 (shapeCast S512x1 v30 shapeCasts_S512x1_S512x1) broadcasts_S512x1_S512x1024)) natLt_1_32)) bitsLt_bf16_f32

/-- The body's value is the product of the rescaled similarities with the one-hot rows. -/
theorem pay3_eq : k0_pay3 (F := Ideal) v3 v15 v30
    = matmul dot_S256x512_S512x1024_S256x1024_1_0_0_1_n_n none (scorev v3 v15) (hotv v30) (constant S256x1024 .f32 0x00000000#32) := rfl

/-! ## Each of them at an index -/

theorem srecip_apply (k : Fin 512) :
    srecip v3 (ix2 k (0 : Fin 1)) = Ideal.div (Ideal.ofBits .f32 0x3F800000#32) (gnorm (fun d => v3 (ix2 k d))) := by
  unfold srecip
  rw [divf_apply, addf_apply, broadcast_apply, broadcast_apply]
  show Ideal.div _ (Ideal.sqrt (shapeCast S512x1 _ _ (ix2 k (0 : Fin 1))) + _) = _
  rw [Cert.Lib.RowRead.shapeCast_a_a1_apply]
  exact congrArg (fun z => Ideal.div (Ideal.ofBits .f32 0x3F800000#32) (Ideal.sqrt z + guard))
    (Cert.Lib.RowRead.lane_sum (a := 512) (b := 2048) (mulf v3 v3) _ _ _ k)

theorem qrecip_apply (p : Fin 256) :
    qrecip v15 (ix2 p (0 : Fin 1)) = Ideal.div (Ideal.ofBits .f32 0x3F800000#32) (gnorm (fun d => v15 (ix2 p d))) := by
  unfold qrecip
  rw [divf_apply, addf_apply, broadcast_apply, broadcast_apply]
  show Ideal.div _ (Ideal.sqrt (shapeCast S256x1 _ _ (ix2 p (0 : Fin 1))) + _) = _
  rw [Cert.Lib.RowRead.shapeCast_a_a1_apply]
  exact congrArg (fun z => Ideal.div (Ideal.ofBits .f32 0x3F800000#32) (Ideal.sqrt z + guard))
    (Cert.Lib.RowRead.lane_sum (a := 256) (b := 2048) (mulf v15 v15) _ _ _ p)

theorem wgt_apply (k : Fin 512) (d : Fin 2048) :
    wgt v3 (ix2 k d) = v3 (ix2 k d) * Ideal.div (Ideal.ofBits .f32 0x3F800000#32) (gnorm (fun d => v3 (ix2 k d))) := by
  unfold wgt
  rw [truncf_apply, mulf_apply, broadcastTo_col_apply, srecip_apply]

theorem simv_apply (p : Fin 256) (k : Fin 512) :
    simv v3 v15 (ix2 p k) = sim (fun d => v15 (ix2 p d)) (fun d => v3 (ix2 k d)) := by
  unfold simv
  refine (Ideal.matmul_constant_zero_apply _ none _ _ _).trans ?_
  rw [← Equiv.sum_comp (contrEquiv1 dot_S256x2048_S512x2048_S256x512_1_1_0_0_n_n 2048 rfl rfl).symm, ← sim_recip]
  refine Finset.sum_congr rfl fun d _ => ?_
  have hd := contrEquiv1_symm_val dot_S256x2048_S512x2048_S256x512_1_1_0_0_n_n 2048 rfl rfl d
  have el : dot_S256x2048_S512x2048_S256x512_1_1_0_0_n_n.lhsIdx (ix2 p k) ((contrEquiv1 dot_S256x2048_S512x2048_S256x512_1_1_0_0_n_n 2048 rfl rfl).symm d) = ix2 p d :=
    funext fun a => Fin.ext (by
      match a with
      | ⟨0, _⟩ => rfl
      | ⟨1, _⟩ => exact (dot_S256x2048_S512x2048_S256x512_1_1_0_0_n_n.lhsIdx_val_of_single (cl := 1) rfl _ _).trans hd)
  have er : dot_S256x2048_S512x2048_S256x512_1_1_0_0_n_n.rhsIdx (ix2 p k) ((contrEquiv1 dot_S256x2048_S512x2048_S256x512_1_1_0_0_n_n 2048 rfl rfl).symm d) = ix2 k d :=
    funext fun a => Fin.ext (by
      match a with
      | ⟨0, _⟩ => rfl
      | ⟨1, _⟩ => exact (dot_S256x2048_S512x2048_S256x512_1_1_0_0_n_n.rhsIdx_val_of_single (cr := 1) rfl _ _).trans hd)
  rw [el, er, truncf_apply, wgt_apply]

theorem scorev_apply (p : Fin 256) (k : Fin 512) :
    scorev v3 v15 (ix2 p k) = score (fun d => v15 (ix2 p d)) (fun d => v3 (ix2 k d)) := by
  unfold scorev
  rw [truncf_apply, mulf_apply, mulf_apply, broadcastTo_col_apply, qrecip_apply]
  show absE (simv v3 v15 (ix2 p k)) * _ * _ = _
  rw [simv_apply, score_recip]

theorem hotv_apply (k : Fin 512) (c : Fin 1024) : hotv v30 (ix2 k c) = hot (v30 (ix2 k (0 : Fin 1))) c.val := by
  unfold hotv
  rw [truncf_apply, sitofp_apply, extui_apply]
  show FloatOps.sitofp .f32 ((IntOp.cmpi .eq (iota .tc S512x1024 32 [1] iota_S512x1024_d1_w32 (ix2 k c))
    (broadcastTo S512x1024 (shapeCast S512x1 v30 shapeCasts_S512x1_S512x1) broadcasts_S512x1_S512x1024 (ix2 k c))).setWidth 32) = _
  rw [broadcastTo_col_apply, shapeCast_self]
  have hi : iota .tc S512x1024 32 [1] iota_S512x1024_d1_w32 (ix2 k c) = BitVec.ofNat 32 c.val := by
    show BitVec.ofNat 32 (0 * 1024 + c.val) = _
    rw [Nat.zero_mul, Nat.zero_add]
  rw [hi]
  exact hot_signed _ _

/-- The body's value at (query p, class c): the scores of the block's support rows of that class, summed. -/
theorem pay3_apply (p : Fin 256) (c : Fin 1024) :
    k0_pay3 (F := Ideal) v3 v15 v30 (ix2 p c)
      = ∑ k : Fin 512, score (fun d => v15 (ix2 p d)) (fun d => v3 (ix2 k d)) * hot (v30 (ix2 k (0 : Fin 1))) c.val := by
  rw [pay3_eq]
  refine (Ideal.matmul_constant_zero_apply _ none _ _ _).trans ?_
  rw [← Equiv.sum_comp (contrEquiv1 dot_S256x512_S512x1024_S256x1024_1_0_0_1_n_n 512 rfl rfl).symm]
  refine Finset.sum_congr rfl fun k _ => ?_
  have hk := contrEquiv1_symm_val dot_S256x512_S512x1024_S256x1024_1_0_0_1_n_n 512 rfl rfl k
  have el : dot_S256x512_S512x1024_S256x1024_1_0_0_1_n_n.lhsIdx (ix2 p c) ((contrEquiv1 dot_S256x512_S512x1024_S256x1024_1_0_0_1_n_n 512 rfl rfl).symm k) = ix2 p k :=
    funext fun a => Fin.ext (by
      match a with
      | ⟨0, _⟩ => rfl
      | ⟨1, _⟩ => exact (dot_S256x512_S512x1024_S256x1024_1_0_0_1_n_n.lhsIdx_val_of_single (cl := 1) rfl _ _).trans hk)
  have er : dot_S256x512_S512x1024_S256x1024_1_0_0_1_n_n.rhsIdx (ix2 p c) ((contrEquiv1 dot_S256x512_S512x1024_S256x1024_1_0_0_1_n_n 512 rfl rfl).symm k) = ix2 k c :=
    funext fun a => Fin.ext (by
      match a with
      | ⟨0, _⟩ => exact (dot_S256x512_S512x1024_S256x1024_1_0_0_1_n_n.rhsIdx_val_of_single (cr := 0) rfl _ _).trans hk
      | ⟨1, _⟩ => rfl)
  rw [el, er, scorev_apply, hotv_apply]

end Cert.KernelIdeal.Pay
end
-- ==== Proof.LibTileSum.lean ====
/-
  A sum over the rows of an array taken tile by tile: for N = T * R, the sum over all N rows is the sum over the T
  tiles of the sum over the R rows of each tile, row R * t + r being row r of tile t. Only commutativity and
  associativity of the addition are used, so the law holds in any commutative additive monoid (the extended reals
  included, infinities and all).
-/
import Mathlib.Algebra.BigOperators.Fin
import Mathlib.Logic.Equiv.Fin.Basic

namespace Cert.Lib.TileSum

open Finset

theorem row_lt {T R N : ℕ} (hN : T * R = N) (t : Fin T) (r : Fin R) : R * t.val + r.val < N := by
  have h1 : R * t.val + r.val < R * (t.val + 1) := by
    rw [Nat.mul_succ]; exact Nat.add_lt_add_left r.isLt _
  have h2 : R * (t.val + 1) ≤ R * T := Nat.mul_le_mul_left _ t.isLt
  rw [← hN, Nat.mul_comm T R]; exact lt_of_lt_of_le h1 h2

/-- The sum over N = T * R indices is the sum over T tiles of the sum over the R indices of each tile. -/
theorem sum_tiles {M : Type*} [AddCommMonoid M] (T R N : ℕ) (hN : T * R = N) (f : Fin N → M) :
    ∑ k : Fin N, f k = ∑ t : Fin T, ∑ r : Fin R, f ⟨R * t.val + r.val, row_lt hN t r⟩ := by
  subst hN
  rw [← (finProdFinEquiv (m := T) (n := R)).sum_comp, Fintype.sum_prod_type]
  refine Finset.sum_congr rfl fun t _ => Finset.sum_congr rfl fun r _ => ?_
  refine congrArg f (Fin.ext ?_)
  show r.val + R * t.val = R * t.val + r.val
  exact Nat.add_comm _ _

end Cert.Lib.TileSum
-- ==== Proof.KValue.lean ====
/-
  The aggregation kernel's output array after the run, index by index.

  Grid point t = 32·b + s reads query rows 256·b + p (p < 256) and support rows 512·s + k (k < 512) with their labels,
  so its contribution at (p, c) is the sum over those 512 support rows of score · hot. The output block of batch
  tile b is written back once, after the point with s = 31, when it holds the contributions of s = 0, …, 31 summed:
  the sum over all 32 · 512 = 16384 support rows. The blocks of b = 0, 1 tile the [512, 1024] array.
-/
import proofs.«153246_j87368224735692_2_alg».proof.Proof.KAcc
import proofs.«153246_j87368224735692_2_alg».proof.Proof.KPay
import proofs.«153246_j87368224735692_2_alg».proof.Proof.LibTileSum
import proofs.«153246_j87368224735692_2_alg».proof.Proof.LibRowRead

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Val

open Cert.KernelIdeal Cert.KernelIdeal.Gen Cert.KernelIdeal.Acc Cert.KernelIdeal.Pay Cert.Knn Cert.Lib.RecipOneHot

variable (m : (ℓ : Loc nD τ sig) → Buf (Elt Ideal) ℓ) (c : Dev nD)

/-! ## The argument arrays by rows, indexed by natural numbers (zero past the array) -/

/-- Query row i. -/
def Xr (i : ℕ) : Fin 2048 → EReal := fun d =>
  if h : i < 512 then (m ((c : Thread nD τ).loc main_arg0) : S512x2048.Idx → EReal) (ix2 ⟨i, h⟩ d) else 0
/-- Support row i. -/
def Sr (i : ℕ) : Fin 2048 → EReal := fun d =>
  if h : i < 16384 then (m ((c : Thread nD τ).loc main_arg1) : S16384x2048.Idx → EReal) (ix2 ⟨i, h⟩ d) else 0
/-- The label of support row i. -/
def Yr (i : ℕ) : BitVec 32 :=
  if h : i < 16384 then (m ((c : Thread nD τ).loc main_arg2) : S16384.Idx → BitVec 32) (ix1 ⟨i, h⟩) else 0

/-! ## The windows' blocks are rows of the arguments -/

/-- The printed index maps over the grid: the query and output windows move with t / 32, the support and label
    windows with t % 32. -/
theorem idx_facts : ∀ t : Fin cfg0.N,
    win0_0.index t (0 : Fin 2) = t.val / 32 ∧ win0_0.index t (1 : Fin 2) = 0
    ∧ win0_1.index t (0 : Fin 2) = t.val % 32 ∧ win0_1.index t (1 : Fin 2) = 0
    ∧ win0_2.index t (0 : Fin 2) = t.val % 32 ∧ win0_2.index t (1 : Fin 2) = 0
    ∧ win0_3.index t (0 : Fin 2) = t.val / 32 ∧ win0_3.index t (1 : Fin 2) = 0 :=
  (by decide +kernel : ∀ t : Fin grid0.N, _)

theorem N64 : cfg0.N = 64 := N_0

/-- Row p of the query block at point t is query row 256·(t / 32) + p. -/
theorem iblk0_row (t : Fin cfg0.N) (p : Fin 256) :
    (fun d => (iblk m c 0 t : Vec Ideal S256x2048 .f32) (ix2 p d)) = Xr m c (256 * (t.val / 32) + p.val) := by
  have hN : t.val < 64 := lt_of_lt_of_eq t.isLt N64
  obtain ⟨e0, e1, -⟩ := idx_facts t
  funext d
  unfold Xr
  rw [dif_pos (by omega)]
  unfold iblk
  rw [View.read_apply]
  show V m c main_arg0 _ = m ((c : Thread nD τ).loc main_arg0) _
  rw [V_main_arg0]
  congr 1
  funext a
  apply Fin.ext
  match a with
  | ⟨0, _⟩ => show win0_0.index t (0 : Fin 2) * 256 + 1 * p.val = 256 * (t.val / 32) + p.val; rw [e0]; omega
  | ⟨1, _⟩ => show win0_0.index t (1 : Fin 2) * 2048 + 1 * d.val = d.val; rw [e1]; omega

/-- Row k of the support block at point t is support row 512·(t % 32) + k. -/
theorem iblk1_row (t : Fin cfg0.N) (k : Fin 512) :
    (fun d => (iblk m c 1 t : Vec Ideal S512x2048 .f32) (ix2 k d)) = Sr m c (512 * (t.val % 32) + k.val) := by
  obtain ⟨-, -, e0, e1, -⟩ := idx_facts t
  funext d
  unfold Sr
  rw [dif_pos (by omega)]
  unfold iblk
  rw [View.read_apply]
  show V m c main_arg1 _ = m ((c : Thread nD τ).loc main_arg1) _
  rw [V_main_arg1]
  congr 1
  funext a
  apply Fin.ext
  match a with
  | ⟨0, _⟩ => show win0_1.index t (0 : Fin 2) * 512 + 1 * k.val = 512 * (t.val % 32) + k.val; rw [e0]; omega
  | ⟨1, _⟩ => show win0_1.index t (1 : Fin 2) * 2048 + 1 * d.val = d.val; rw [e1]; omega

/-- The labels reach the kernel as a column: the host reshapes the label vector before the launch. -/
theorem V_labels : (V m c main_v0 : S16384x1.Idx → BitVec 32)
    = shapeCast S16384x1 (m ((c : Thread nD τ).loc main_arg2) : S16384.Idx → BitVec 32) shapeCasts_S16384_S16384x1 := by
  show StableHlo.after hostOps0 (fun b => m (c, b)) (Proc.devRef .tc main_v0) = _
  after_results
  rfl

/-- Entry k of the label block at point t is the label of support row 512·(t % 32) + k. -/
theorem iblk2_at (t : Fin cfg0.N) (k : Fin 512) :
    (iblk m c 2 t : Vec Ideal S512x1 .i32) (ix2 k (0 : Fin 1)) = Yr m c (512 * (t.val % 32) + k.val) := by
  obtain ⟨-, -, -, -, e0, e1, -⟩ := idx_facts t
  unfold Yr
  rw [dif_pos (by omega)]
  unfold iblk
  rw [View.read_apply]
  show V m c main_v0 _ = _
  rw [V_labels]
  have hr : 512 * (t.val % 32) + k.val < 16384 := by omega
  refine Eq.trans (congrArg _ ?_) (Cert.Lib.RowRead.shapeCast_a_a1_apply _ _ ⟨512 * (t.val % 32) + k.val, hr⟩ (0 : Fin 1))
  funext a
  apply Fin.ext
  match a with
  | ⟨0, _⟩ => show win0_2.index t (0 : Fin 2) * 512 + 1 * k.val = 512 * (t.val % 32) + k.val; rw [e0]; omega
  | ⟨1, _⟩ => show win0_2.index t (1 : Fin 2) * 1 + 1 * 0 = 0; rw [e1]

/-! ## A point's contribution, and a batch tile's total -/

/-- The contribution of point n at (p, cc): the scores of its 512 support rows of class cc, summed. -/
theorem contrib_apply (n : ℕ) (hn : n < cfg0.N) (p : Fin 256) (cc : Fin 1024) :
    contrib m c n (ix2 p cc)
      = ∑ k : Fin 512, score (Xr m c (256 * (n / 32) + p.val)) (Sr m c (512 * (n % 32) + k.val)) * hot (Yr m c (512 * (n % 32) + k.val)) cc.val := by
  rw [contrib_of_lt m c n hn]
  refine (pay3_apply (iblk m c 1 ⟨n, hn⟩) (iblk m c 0 ⟨n, hn⟩) (iblk m c 2 ⟨n, hn⟩) p cc).trans ?_
  refine Finset.sum_congr rfl fun k _ => ?_
  rw [iblk0_row m c ⟨n, hn⟩ p, iblk1_row m c ⟨n, hn⟩ k, iblk2_at m c ⟨n, hn⟩ k]

/-- The aggregate over all support rows for query row q and class cc. -/
abbrev total (q : ℕ) (cc : ℕ) : EReal := agg (Xr m c q) (fun r => Sr m c r.val) (fun r => Yr m c r.val) cc

/-- After the last point of batch tile t / 32 the output block holds, at (p, cc), the aggregate of query row
    256·(t / 32) + p. -/
theorem block_total (t : Fin cfg0.N) (hf : t.val % 32 = 31) (j : S256x1024.Idx) :
    outsAt0 (F := Ideal) m c t.val t.isLt j = total m c (256 * (t.val / 32) + (j 0).val) (j 1).val := by
  have hN : t.val < 64 := lt_of_lt_of_eq t.isLt N64
  obtain ⟨p, cc, rfl⟩ : ∃ (p : Fin 256) (cc : Fin 1024), j = ix2 p cc := ⟨j 0, j 1, eq_ix2 j⟩
  rw [outsAt_eq m c t.val t.isLt, hf, Finset.sum_range]
  show _ = agg _ _ _ _
  unfold agg
  rw [Cert.Lib.TileSum.sum_tiles 32 512 16384 rfl]
  refine Finset.sum_congr rfl fun s _ => ?_
  have hs : 32 * (t.val / 32) + s.val < cfg0.N := lt_of_lt_of_eq (by have := s.isLt; omega : _ < 64) N64.symm
  rw [contrib_apply m c _ hs p cc, show (32 * (t.val / 32) + s.val) / 32 = t.val / 32 by have := s.isLt; omega,
    show (32 * (t.val / 32) + s.val) % 32 = s.val by have := s.isLt; omega]

/-! ## The output array -/

/-- What the [512, 1024] output array ends holding: at (q, cc) the aggregate of query row q and class cc. -/
def G : S512x1024.Idx → EReal := fun i => total m c (i 0).val (i 1).val

/-- The write-back after the last point of a batch tile writes that tile's block of G. -/
theorem flushed_eq (t : Fin cfg0.N) (hf : (cfg0.win 3).flush t = true) :
    (dats m 0 c).flushed 3 t = ((cfg0.win 3).blk t).view.read (Elt Ideal) (G m c) := by
  have h31 : t.val % 32 = 31 := (flush0_3 t).mp hf
  obtain ⟨-, -, -, -, -, -, e0, e1⟩ := idx_facts t
  show (cfg0.win 3).cut (grid0.coords t) ((dats m 0 c).after 3 t) = _
  rw [after0_3]
  funext j
  rw [View.read_apply]
  show outsAt0 (F := Ideal) m c t.val t.isLt ((cfg0.win 3).xinj (grid0.coords t) j) = _
  refine eq_of_heq (HEq.trans (heq_of_eq ?_) (cast_heq _ _).symm)
  rw [block_total m c t h31 _]
  unfold G
  show total m c (256 * (t.val / 32) + (j 0).val) (j 1).val = _
  have h0 : ((((cfg0.win 3).blk t).view.emb j) 0).val = 256 * (t.val / 32) + (j 0).val := by
    show win0_3.index t (0 : Fin 2) * 256 + 1 * (j 0).val = _; rw [e0]; omega
  have h1 : ((((cfg0.win 3).blk t).view.emb j) 1).val = (j 1).val := by
    show win0_3.index t (1 : Fin 2) * 1024 + 1 * (j 1).val = _; rw [e1]; omega
  rw [h0, h1]

/-- An index of the array is in point t's block iff each coordinate is in the block's range on its axis. -/
theorem mem_blk (t : Fin cfg0.N) (i : S512x1024.Idx) :
    i ∈ ((cfg0.win 3).blk t).view.set ↔ ∀ a : Fin 2, win0_3.index t a * S256x1024.size a ≤ (i a).val ∧ (i a).val < win0_3.index t a * S256x1024.size a + S256x1024.size a := by
  show i ∈ ((View.whole main_v1).slice (win0_3.rect t)).set ↔ _
  rw [View.set_slice_whole, Rect.mem_set_unit]
  exact Iff.rfl

/-- The output array after the run is G. -/
theorem final (c : Dev nD) : (dats m 0 c).arrAt 3 cfg0.N = G m c :=
  (dats m 0 c).arrAt_eq_of_cover 3 (G m c) (fun t hf => flushed_eq m c t hf) fun i => by
    have hi0 : (i 0).val < 512 := (i 0).isLt
    have hi1 : (i 1).val < 1024 := (i 1).isLt
    have ht : 32 * ((i 0).val / 256) + 31 < cfg0.N := lt_of_lt_of_eq (by omega : _ < 64) N64.symm
    obtain ⟨-, -, -, -, -, -, e0, e1⟩ := idx_facts ⟨32 * ((i 0).val / 256) + 31, ht⟩
    refine ⟨⟨32 * ((i 0).val / 256) + 31, ht⟩, (flush0_3 _).mpr (by show (32 * ((i 0).val / 256) + 31) % 32 = 31; omega), ?_⟩
    rw [mem_blk]
    intro a
    match a with
    | ⟨0, _⟩ =>
      show win0_3.index _ (0 : Fin 2) * 256 ≤ (i 0).val ∧ (i 0).val < win0_3.index _ (0 : Fin 2) * 256 + 256
      rw [e0]; show (32 * ((i 0).val / 256) + 31) / 32 * 256 ≤ _ ∧ _ < (32 * ((i 0).val / 256) + 31) / 32 * 256 + 256; omega
    | ⟨1, _⟩ =>
      show win0_3.index _ (1 : Fin 2) * 1024 ≤ (i 1).val ∧ (i 1).val < win0_3.index _ (1 : Fin 2) * 1024 + 1024
      rw [e1]; omega

end Cert.KernelIdeal.Val
end
-- ==== Proof.KRun.lean ====
/-
  The kernel's run, read: after the launch the host keeps the first 1000 of the 1024 padded class columns, so the
  program's result at (query q, class cc), cc < 1000, is the aggregate over all support rows of score · hot.
-/
import proofs.«153246_j87368224735692_2_alg».proof.Proof.KValue
import Idealize.ShloMosaic.Lib.StableHlo.Run

noncomputable section

open Idealize.ShloMosaic Idealize.ShloMosaic.TcCoe Idealize.SL.Sem Idealize.ShloMosaic.ValueIdx
open Idealize.ShloMosaic.Pipeline (Dat)

namespace Cert.KernelIdeal.Val

open Cert.KernelIdeal Cert.KernelIdeal.Gen Cert.Knn

variable (m : (ℓ : Loc nD τ sig) → Buf (Elt Ideal) ℓ) (ρ : Dev nD → PrngReg)

/-- The program's result: the aggregate of query row q and class cc < 1000. -/
def result (c : Dev nD) : S512x1000.Idx → EReal := fun i => total m c (i 0).val (i 1).val

/-- The host's slice of the output array is the result. -/
theorem tail_eq (c : Dev nD) : Pipeline.afterTail₀ cfgs (dats m) 0 (V0 m) [hostOps1] c main_v2 = result m c := by
  unfold Pipeline.afterTail₀
  show StableHlo.after hostOps1 _ (Proc.devRef .tc main_v2) = _
  after_results
  have hw : Pipeline.withArrays (cfgs 0).spec c (V0 m c) (fun w => (dats m 0 c).arrAt w (cfgs 0).N) (Proc.devRef .tc main_v1) = G m c :=
    (Pipeline.withArrays_arr spec0 launch0.win.arr_inj c _ _ 3).trans (final m c)
  rw [hw]
  funext i
  have h0 : (i 0).val < 512 := (i 0).isLt
  have h1 : (i 1).val < 1000 := (i 1).isLt
  exact extractStridedSlice_apply _ _ _ i (ix2 (⟨(i 0).val, h0⟩ : Fin 512) (⟨(i 1).val, by omega⟩ : Fin 1024)) (fun a => by
    match a with
    | ⟨0, _⟩ => show (i 0).val = 0 + (i 0).val; omega
    | ⟨1, _⟩ => show (i 1).val = 0 + (i 1).val; omega)

/-- Every weakly fair execution of the program terminates with its result at the aggregate and its arguments unchanged. -/
theorem run : θ_run defs (onTc (τ := τ) (main (F := Ideal))) ⟨m, fun _ => 0, ρ⟩ fun r => ∀ c : Dev nD,
      r.2.mem ((c.tc : Thread nD τ).loc main_v2) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v2 (Pipeline.mem_restRefs_of main_v2 (by decide) (by decide))).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c)⟩)
    (run_main m ρ)

/-! ## The rows as the arrays' own -/

theorem Xr_row (c : Dev nD) (q : Fin 512) :
    Xr m c q.val = fun d => (m ((c : Thread nD τ).loc main_arg0) : S512x2048.Idx → EReal) (ix2 q d) := by
  funext d; unfold Xr; rw [dif_pos q.isLt]

theorem Sr_row (c : Dev nD) (r : Fin 16384) :
    Sr m c r.val = fun d => (m ((c : Thread nD τ).loc main_arg1) : S16384x2048.Idx → EReal) (ix2 r d) := by
  funext d; unfold Sr; rw [dif_pos r.isLt]

theorem Yr_row (c : Dev nD) (r : Fin 16384) :
    Yr m c r.val = (m ((c : Thread nD τ).loc main_arg2) : S16384.Idx → BitVec 32) (ix1 r) := by
  unfold Yr; rw [dif_pos r.isLt]

/-- The result over the argument arrays themselves. -/
theorem result_apply (c : Dev nD) (i : S512x1000.Idx) :
    result m c i = agg (fun d => (m ((c : Thread nD τ).loc main_arg0) : S512x2048.Idx → EReal) (ix2 (i 0) d))
      (fun r d => (m ((c : Thread nD τ).loc main_arg1) : S16384x2048.Idx → EReal) (ix2 r d))
      (fun r => (m ((c : Thread nD τ).loc main_arg2) : S16384.Idx → BitVec 32) (ix1 r)) (i 1).val := by
  unfold result
  show agg _ _ _ _ = _
  rw [Xr_row m c (i 0)]
  simp only [Sr_row, Yr_row]

end Cert.KernelIdeal.Val
end
-- ==== Proof.lean ====
/-
  The kernel and its reference compute one function on the extended reals.

  The reference normalises each of the 16384 support rows by its guarded Euclidean norm, takes the similarity of
  each of the 512 query rows to each normalised support row, rescales it by its own absolute value over the query's
  guarded norm, and sums the rescaled similarities of the support rows of each of the 1000 classes.
  The kernel does the same 256 query rows and 512 support rows at a time over a 2 × 32 grid, multiplying by
  reciprocals where the reference divides, accumulating the 32 support tiles of a batch tile in its output block,
  over 1024 padded classes of which the host keeps the first 1000.
  The two agree because a guarded norm is never zero (so a · (1 / n) = a / n on the extended reals, infinities
  included) and a sum over 16384 rows is the sum over 32 tiles of 512 rows. No finiteness of the inputs is used.
  The idealization of the kernel rewrites nothing, so that claim is trivial; the three frames are the generated
  frame runs.
-/
import proofs.«153246_j87368224735692_2_alg».proof.Defs
import proofs.«153246_j87368224735692_2_alg».proof.Proof.Gen.Kernel
import proofs.«153246_j87368224735692_2_alg».proof.Proof.Gen.Kernel.Frame
import proofs.«153246_j87368224735692_2_alg».proof.Proof.Gen.KernelIdeal
import proofs.«153246_j87368224735692_2_alg».proof.Proof.Gen.KernelIdeal.Frame
import proofs.«153246_j87368224735692_2_alg».proof.Proof.Gen.ReferenceIdeal
import proofs.«153246_j87368224735692_2_alg».proof.Proof.Gen.ReferenceIdeal.Run
import proofs.«153246_j87368224735692_2_alg».proof.Proof.Gen.ReferenceIdeal.Read
import proofs.«153246_j87368224735692_2_alg».proof.Proof.Gen.Pre_finite_inputs
import proofs.«153246_j87368224735692_2_alg».proof.Proof.RefSpec
import proofs.«153246_j87368224735692_2_alg».proof.Proof.KRun
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end at the aggregate of Spec of arguments that agree. -/
theorem algebraic : Cert.algebraic_KernelIdeal_ReferenceIdeal := by
  intro m ρ m' ρ' _ hagree
  refine ⟨fun c => Cert.KernelIdeal.Val.result m c, Cert.KernelIdeal.Val.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v14_eq _ _ _).trans ?_
  funext i
  rw [Cert.ReferenceIdeal.RefSpec.result_eq, (hagree c).1, (hagree c).2.1, (hagree c).2.2]
  exact (Cert.KernelIdeal.Val.result_apply m c i).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
